-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x512 : Shape := ⟨3, ![2, 2048, 512]⟩
abbrev S32000x512 : Shape := ⟨2, ![32000, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S32000x512 : S_.BroadcastsInDim S32000x512 (![] : Fin 0 → Fin S32000x512.rank)
  reducesTo_S32000x512_S_d0_1 : S32000x512.ReducesTo [0, 1] S_

variable [Facts]

def fn {F : FTy → Type} [FloatOps F] (main_arg0 : FVec F S2x2048x512 .f32) (main_arg1 : FVec F S32000x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S32000x512 .f32 := Host.absf main_arg1
  let main_cst_0 : FVec F S_ .f32 := constant S_ .f32 0x7F800000#32
  let main_v5 : FVec F S32000x512 .f32 := broadcastInDim S32000x512 ![] bcast_S_S32000x512 main_cst_0
  let main_v6 : IVec S32000x512 1 := cmpf .olt main_v4 main_v5
  let main_c_1 : IVec S_ 1 := constantI S_ 1 1#1
  let main_v7 : IVec S_ 1 := (fun x v => Host.reduce IntOp.andi x v reducesTo_S32000x512_S_d0_1 h_S_) main_v6 main_c_1
  let main_v8 : IVec S_ 1 := andi main_v3 main_v7
  main_v8
-- ==== Kernel.lean ====
abbrev S2x2048x512 : Shape := ⟨3, ![2, 2048, 512]⟩
abbrev S32000x512 : Shape := ⟨2, ![32000, 512]⟩
abbrev S4096x512 : Shape := ⟨2, ![4096, 512]⟩
abbrev S4096x32000 : Shape := ⟨2, ![4096, 32000]⟩
abbrev S2048x512 : Shape := ⟨2, ![2048, 512]⟩
abbrev S1280x512 : Shape := ⟨2, ![1280, 512]⟩
abbrev S2048x1280 : Shape := ⟨2, ![2048, 1280]⟩
abbrev S2048x1 : Shape := ⟨2, ![2048, 1]⟩
abbrev S2048 : Shape := ⟨1, ![2048]⟩
abbrev S1280 : Shape := ⟨1, ![1280]⟩
abbrev S1x1280 : Shape := ⟨2, ![1, 1280]⟩
abbrev S2x2048x32000 : Shape := ⟨3, ![2, 2048, 32000]⟩

abbrev nBuf : Space → Nat
  | .hbm => 5
  | .vmem => 8
  | .smem => 0
  | _ => 0

abbrev bufTy : (tb : Table) → Fin (tcTables nBuf tb) → BufTy
  | .hbm, ⟨0, _⟩ => ⟨S2x2048x512, .f32⟩
  | .hbm, ⟨1, _⟩ => ⟨S32000x512, .f32⟩
  | .hbm, ⟨2, _⟩ => ⟨S4096x512, .f32⟩
  | .hbm, ⟨3, _⟩ => ⟨S4096x32000, .f32⟩
  | .hbm, ⟨4, _⟩ => ⟨S2x2048x32000, .f32⟩
  | .local _ .vmem, ⟨0, _⟩ => ⟨S2048x512, .f32⟩
  | .local _ .vmem, ⟨1, _⟩ => ⟨S2048x512, .f32⟩
  | .local _ .vmem, ⟨2, _⟩ => ⟨S1280x512, .f32⟩
  | .local _ .vmem, ⟨3, _⟩ => ⟨S1280x512, .f32⟩
  | .local _ .vmem, ⟨4, _⟩ => ⟨S2048x1280, .f32⟩
  | .local _ .vmem, ⟨5, _⟩ => ⟨S2048x1280, .f32⟩
  | .local _ .vmem, ⟨6, _⟩ => ⟨S2048x512, .f32⟩
  | .local _ .vmem, ⟨7, _⟩ => ⟨S2048x1, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x2048x512_S4096x512 : S2x2048x512.ShapeCasts S4096x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S2048x512_S2048 : S2048x512.Reduces [1] S2048
  shapeCasts_S2048_S2048x1 : S2048.ShapeCasts S2048x1
  broadcasts_S2048x1_S2048x512 : S2048x1.Broadcasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1280x512_S1280x512_0_0 : ∀ a, (![0, 0] : Fin 2 → Nat) a + S1280x512.size a ≤ S1280x512.size a
  h_S1280x512 : 0 < S1280x512.numel
  reduces_S1280x512_S1280 : S1280x512.Reduces [1] S1280
  shapeCasts_S1280_S1x1280 : S1280.ShapeCasts S1x1280
  broadcasts_S2048x1_S2048x1280 : S2048x1.Broadcasts S2048x1280
  broadcasts_S1x1280_S2048x1280 : S1x1280.Broadcasts S2048x1280
  inb_S2048x1280_S2048x1280_0_0 : ∀ a, (![0, 0] : Fin 2 → Nat) a + S2048x1280.size a ≤ S2048x1280.size a
  h_S2048x1280 : 0 < S2048x1280.numel
  shapeCasts_S4096x32000_S2x2048x32000 : S4096x32000.ShapeCasts S2x2048x32000
  dot_S2048x512_S1280x512_S2048x1280_1_1_0_0_n_n_wf : DotDims.WF S2048x512 S1280x512 S2048x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .f32 = 32 ∨ (Rect.block (s := S4096x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x512.size a ≤ S32000x512.size a
  hwx0_1 : ∀ i : grid0.Coords, EltTy.bits .f32 = 32 ∨ (Rect.block (s := S32000x512) S1280x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1280.size a ≤ S4096x32000.size a
  hwx0_2 : ∀ i : grid0.Coords, EltTy.bits .f32 = 32 ∨ (Rect.block (s := S4096x32000) S2048x1280.size (cc0_transform_2 i) (hinb0_2 i)).WholeWords (EltTy.packing .f32)

variable [Facts₀]

def dot_S2048x512_S1280x512_S2048x1280_1_1_0_0_n_n : DotDims S2048x512 S1280x512 S2048x1280 where
  lhsContracting := [1]
  rhsContracting := [1]
  lhsNonContracting := [0]
  rhsNonContracting := [0]
  lhsBatch := []
  rhsBatch := []
  wf := dot_S2048x512_S1280x512_S2048x1280_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1280x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x512 : Shape := ⟨3, ![2, 2048, 512]⟩
abbrev S32000x512 : Shape := ⟨2, ![32000, 512]⟩
abbrev S_ : Shape := ⟨0, ![]⟩
abbrev S2x2048 : Shape := ⟨2, ![2, 2048]⟩
abbrev S2x2048x1 : Shape := ⟨3, ![2, 2048, 1]⟩
abbrev S32000 : Shape := ⟨1, ![32000]⟩
abbrev S2x2048x32000 : Shape := ⟨3, ![2, 2048, 32000]⟩
abbrev S1x1x32000 : Shape := ⟨3, ![1, 1, 32000]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S32000x512, .f32⟩
  | .hbm, ⟨2, _⟩ => ⟨S2x2048x512, .f32⟩
  | .hbm, ⟨3, _⟩ => ⟨S_, .f32⟩
  | .hbm, ⟨4, _⟩ => ⟨S2x2048, .f32⟩
  | .hbm, ⟨5, _⟩ => ⟨S2x2048x1, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S2x2048x512, .f32⟩
  | .hbm, ⟨11, _⟩ => ⟨S2x2048x512, .f32⟩
  | .hbm, ⟨12, _⟩ => ⟨S2x2048x512, .f32⟩
  | .hbm, ⟨13, _⟩ => ⟨S_, .f32⟩
  | .hbm, ⟨14, _⟩ => ⟨S2x2048, .f32⟩
  | .hbm, ⟨15, _⟩ => ⟨S2x2048x1, .f32⟩
  | .hbm, ⟨16, _⟩ => ⟨S32000x512, .f32⟩
  | .hbm, ⟨17, _⟩ => ⟨S_, .f32⟩
  | .hbm, ⟨18, _⟩ => ⟨S32000, .f32⟩
  | .hbm, ⟨19, _⟩ => ⟨S2x2048x32000, .f32⟩
  | .hbm, ⟨20, _⟩ => ⟨S_, .f32⟩
  | .hbm, ⟨21, _⟩ => ⟨S2x2048x32000, .f32⟩
  | .hbm, ⟨22, _⟩ => ⟨S2x2048x32000, .f32⟩
  | .hbm, ⟨23, _⟩ => ⟨S2x2048x32000, .f32⟩
  | .hbm, ⟨24, _⟩ => ⟨S2x2048x32000, .f32⟩
  | .hbm, ⟨25, _⟩ => ⟨S1x1x32000, .f32⟩
  | .hbm, ⟨26, _⟩ => ⟨S2x2048x32000, .f32⟩
  | .hbm, ⟨27, _⟩ => ⟨S2x2048x32000, .f32⟩
  | .hbm, ⟨28, _⟩ => ⟨S_, .f32⟩
  | .hbm, ⟨29, _⟩ => ⟨S2x2048x32000, .f32⟩
  | .hbm, ⟨30, _⟩ => ⟨S2x2048x32000, .f32⟩
  | .hbm, ⟨31, _⟩ => ⟨S2x2048x32000, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S2x2048x512_S2x2048_d2 : S2x2048x512.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x512_0_1_2 : S2x2048x1.BroadcastsInDim S2x2048x512 (![0, 1, 2] : Fin 3 → Fin S2x2048x512.rank)
  reducesTo_S32000x512_S32000_d1 : S32000x512.ReducesTo [1] S32000
  bcast_S_S2x2048x32000 : S_.BroadcastsInDim S2x2048x32000 (![] : Fin 0 → Fin S2x2048x32000.rank)
  bcast_S2x2048x1_S2x2048x32000_0_1_2 : S2x2048x1.BroadcastsInDim S2x2048x32000 (![0, 1, 2] : Fin 3 → Fin S2x2048x32000.rank)
  bcast_S32000_S1x1x32000_2 : S32000.BroadcastsInDim S1x1x32000 (![2] : Fin 1 → Fin S1x1x32000.rank)
  bcast_S1x1x32000_S2x2048x32000_0_1_2 : S1x1x32000.BroadcastsInDim S2x2048x32000 (![0, 1, 2] : Fin 3 → Fin S2x2048x32000.rank)
  dot_S2x2048x512_S32000x512_S2x2048x32000_2_1_01_0_n_n_wf : DotDims.WF S2x2048x512 S32000x512 S2x2048x32000 [2] [1] [0, 1] [0] [] []

variable [Facts₀]

def dot_S2x2048x512_S32000x512_S2x2048x32000_2_1_01_0_n_n : DotDims S2x2048x512 S32000x512 S2x2048x32000 where
  lhsContracting := [2]
  rhsContracting := [1]
  lhsNonContracting := [0, 1]
  rhsNonContracting := [0]
  lhsBatch := []
  rhsBatch := []
  wf := dot_S2x2048x512_S32000x512_S2x2048x32000_2_1_01_0_n_n_wf

class Facts : Prop extends Facts₀ where

variable [Facts]
-- ==== Proof.Pieces.lean ====
/-
  What each case of the body leaves in its buffers, as values.

  The body runs in one of two ways. At a point that starts a row of the grid (second coordinate zero) it computes, from
  the block of `h`, the block scaled to unit length and the column of squared lengths, stores both in the two buffers it
  carries from point to point, reads them back, and computes the tile of distances from them and the codebook block. At
  every other point it stores nothing into the carried buffers and computes the tile from what they hold. Every store
  covers its whole buffer and every load reads a whole buffer, so what a buffer holds after the body is the stored value
  itself, and what a load reads is the contents; a load of a buffer just stored reads the stored value.
-/
import proofs.«177006_j24635932410273_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A point that carries: the tile is computed from what the two carried buffers hold and the codebook block. -/
theorem outB (c : Dev nD) (i : grid0.Coords) (a2 : Memref sig .tc .vmem S2048x512 .f32) (h2 : a2.IsWhole) (a3 : Memref sig .tc .vmem S1280x512 .f32) (h3 : a3.IsWhole) (a4 : Memref sig .tc .vmem S2048x1280 .f32) (h4 : a4.IsWhole) (a5 : Memref sig .tc .vmem S2048x512 .f32) (h5 : a5.IsWhole) (a6 : Memref sig .tc .vmem S2048x1 .f32) (h6 : a6.IsWhole) (hc : ¬cond0_0 i)
    (x0 : Vec F S2048x512 .f32) (x1 : Vec F S1280x512 .f32) (xs0 : Vec F S2048x512 .f32) (xs1 : Vec F S2048x1 .f32) :
    out0_B_2 c i a2 h2 a3 h3 a4 h4 a5 h5 a6 h6 hc x0 x1 xs0 xs1 = k0_pay4 xs0 xs1 x1 := by
  unfold out0_B_2
  rw [View.read_writes_eq_canon _ _ _ (cover0_B_2 c i a2 h2 a3 h3 a4 h4 a5 h5 a6 h6 hc x0 x1 xs0 xs1)]
  unfold kernelRun0_B
  dsimp only
  rw [View.canon_unit_zero hz]
  simp only [View.readAt_eq_ld, h2.read_unread, h3.read_unread, h5.read_unread, h6.read_unread, View.ld_unit_zero (S := S2048x512) hz,
    View.ld_unit_zero (S := S2048x1) hz, View.ld_unit_zero (S := S1280x512) hz]

/-- A point that starts a row of the grid: the two carried values are computed from the block of `h`, stored, read back,
    and the tile is computed from them and the codebook block. -/
theorem outA (c : Dev nD) (i : grid0.Coords) (a2 : Memref sig .tc .vmem S2048x512 .f32) (h2 : a2.IsWhole) (a3 : Memref sig .tc .vmem S1280x512 .f32) (h3 : a3.IsWhole) (a4 : Memref sig .tc .vmem S2048x1280 .f32) (h4 : a4.IsWhole) (a5 : Memref sig .tc .vmem S2048x512 .f32) (h5 : a5.IsWhole) (a6 : Memref sig .tc .vmem S2048x1 .f32) (h6 : a6.IsWhole) (hc : cond0_0 i)
    (x0 : Vec F S2048x512 .f32) (x1 : Vec F S1280x512 .f32) :
    out0_A_2 c i a2 h2 a3 h3 a4 h4 a5 h5 a6 h6 hc x0 x1 = k0_pay4 (k0_pay2 x0) (k0_pay3 x0) x1 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_unit_zero hz, View.readCov_unit_zero (S := S2048x512) _ hz, View.readCov_unit_zero (S := S2048x1) _ hz]
  simp only [View.readAt_eq_ld, h2.read_unread, h3.read_unread, h5.read_unread, h6.read_unread, View.ld_unit_zero (S := S2048x512) hz,
    View.ld_unit_zero (S := S2048x1) hz, View.ld_unit_zero (S := S1280x512) hz]

/-- It leaves the scaled block in the first carried buffer, -/
theorem soutA0 (c : Dev nD) (i : grid0.Coords) (a2 : Memref sig .tc .vmem S2048x512 .f32) (h2 : a2.IsWhole) (a3 : Memref sig .tc .vmem S1280x512 .f32) (h3 : a3.IsWhole) (a4 : Memref sig .tc .vmem S2048x1280 .f32) (h4 : a4.IsWhole) (a5 : Memref sig .tc .vmem S2048x512 .f32) (h5 : a5.IsWhole) (a6 : Memref sig .tc .vmem S2048x1 .f32) (h6 : a6.IsWhole) (hc : cond0_0 i)
    (x0 : Vec F S2048x512 .f32) (x1 : Vec F S1280x512 .f32) :
    sout0_A_0 c i a2 h2 a3 h3 a4 h4 a5 h5 a6 h6 hc x0 x1 = k0_pay2 x0 := by
  unfold sout0_A_0
  rw [View.read_writes_eq_canon _ _ _ (scover0_A_0 c i a2 h2 a3 h3 a4 h4 a5 h5 a6 h6 hc x0 x1)]
  unfold kernelRun0_A
  dsimp only
  sl_unfold_words
  rw [View.canon_unit_zero hz]
  simp only [View.readAt_eq_ld, h2.read_unread, h3.read_unread, h5.read_unread, h6.read_unread, View.ld_unit_zero (S := S2048x512) hz,
    View.ld_unit_zero (S := S2048x1) hz, View.ld_unit_zero (S := S1280x512) hz]

/-- and the column of squared lengths in the second. -/
theorem soutA1 (c : Dev nD) (i : grid0.Coords) (a2 : Memref sig .tc .vmem S2048x512 .f32) (h2 : a2.IsWhole) (a3 : Memref sig .tc .vmem S1280x512 .f32) (h3 : a3.IsWhole) (a4 : Memref sig .tc .vmem S2048x1280 .f32) (h4 : a4.IsWhole) (a5 : Memref sig .tc .vmem S2048x512 .f32) (h5 : a5.IsWhole) (a6 : Memref sig .tc .vmem S2048x1 .f32) (h6 : a6.IsWhole) (hc : cond0_0 i)
    (x0 : Vec F S2048x512 .f32) (x1 : Vec F S1280x512 .f32) :
    sout0_A_1 c i a2 h2 a3 h3 a4 h4 a5 h5 a6 h6 hc x0 x1 = k0_pay3 x0 := by
  unfold sout0_A_1
  rw [View.read_writes_eq_canon _ _ _ (scover0_A_1 c i a2 h2 a3 h3 a4 h4 a5 h5 a6 h6 hc x0 x1)]
  unfold kernelRun0_A
  dsimp only
  sl_unfold_words
  rw [View.canon_unit_zero hz]
  simp only [View.readAt_eq_ld, h2.read_unread, h3.read_unread, h5.read_unread, h6.read_unread, View.ld_unit_zero (S := S2048x512) hz,
    View.ld_unit_zero (S := S2048x1) hz, View.ld_unit_zero (S := S1280x512) hz]

end Cert.KernelIdeal.Pieces

end
-- ==== Proof.Carried.lean ====
/-
  What the buffers hold after each point of the grid.
-/
import proofs.«177006_j24635932410273_2_alg».proof.Proof.Gen.KernelIdeal.Frame
import proofs.«177006_j24635932410273_2_alg».proof.Proof.Pieces
import Idealize.ShloMosaic.Lib.Pipeline.Value
import Idealize.ShloMosaic.Lib.ValueIdx

noncomputable section

namespace Cert.KernelIdeal.Carried

open Cert.KernelIdeal Cert.KernelIdeal.Gen Cert.KernelIdeal.Pieces Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Point `t` of the 2 × 25 grid is `(t / 25, t % 25)`: it reads block `t / 25` of the rows of `h`, block `t % 25` of the
    codebook's rows, and writes block `(t / 25, t % 25)` of the result. -/
theorem idx_facts : ∀ t : Fin cfg0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = t.val % 25 :=
  (by decide +kernel : ∀ t : Fin grid0.N,
    win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = t.val % 25)

/-- Row `p` of the block of `h` at point `t` is row `2048 · (t / 25) + p` of the 4096 rows. -/
theorem iblk0_apply (c : Dev nD) (t : Fin cfg0.N) (p : Fin 2048) (k : Fin 512) (r : Fin 4096)
    (hr : r.val = 2048 * (t.val / 25) + p.val) :
    (iblk m c 0 t : Vec F S2048x512 .f32) (ix2 p k) = V m c main_v0 (ix2 r k) := by
  unfold iblk
  rw [View.read_apply]
  show V m c main_v0 (((cfg0.win 0).blk t).view.emb (ix2 p k)) = V m c main_v0 (ix2 r k)
  refine congrArg (V m c main_v0) (funext fun a => Fin.ext ?_)
  match a with
  | ⟨0, _⟩ =>
    show win0_0.index t (0 : Fin 2) * 2048 + 1 * p.val = r.val
    rw [(idx_facts t).1, hr]; omega
  | ⟨1, _⟩ =>
    show win0_0.index t (1 : Fin 2) * 512 + 1 * k.val = k.val
    rw [(idx_facts t).2.1]; omega

/-- Row `q` of the codebook block at point `t` is row `1280 · (t % 25) + q` of the codebook. -/
theorem iblk1_apply (c : Dev nD) (t : Fin cfg0.N) (q : Fin 1280) (k : Fin 512) (n : Fin 32000)
    (hn : n.val = 1280 * (t.val % 25) + q.val) :
    (iblk m c 1 t : Vec F S1280x512 .f32) (ix2 q k) = V m c main_arg1 (ix2 n k) := by
  unfold iblk
  rw [View.read_apply]
  show V m c main_arg1 (((cfg0.win 1).blk t).view.emb (ix2 q k)) = V m c main_arg1 (ix2 n k)
  refine congrArg (V m c main_arg1) (funext fun a => Fin.ext ?_)
  match a with
  | ⟨0, _⟩ =>
    show win0_1.index t (0 : Fin 2) * 1280 + 1 * q.val = n.val
    rw [(idx_facts t).2.2.1, hn]; omega
  | ⟨1, _⟩ =>
    show win0_1.index t (1 : Fin 2) * 512 + 1 * k.val = k.val
    rw [(idx_facts t).2.2.2.1]; omega

/-- Two points of one row of the grid read the same block of `h`. -/
theorem iblk0_congr (c : Dev nD) (t t' : Fin cfg0.N) (h : t.val / 25 = t'.val / 25) :
    (iblk m c 0 t : Vec F S2048x512 .f32) = (iblk m c 0 t' : Vec F S2048x512 .f32) := by
  have hN : t.val < 50 := lt_of_lt_of_eq t.isLt (show cfg0.N = 50 from N_0)
  funext j
  obtain ⟨p, k, rfl⟩ : ∃ (p : Fin 2048) (k : Fin 512), j = ix2 p k := ⟨j 0, j 1, eq_ix2 j⟩
  have hp := p.isLt
  rw [iblk0_apply m c t p k ⟨2048 * (t.val / 25) + p.val, by omega⟩ rfl,
    iblk0_apply m c t' p k ⟨2048 * (t.val / 25) + p.val, by omega⟩
      (by show 2048 * (t.val / 25) + p.val = 2048 * (t'.val / 25) + p.val; omega)]

/-- What the output buffer and the two carried buffers hold after point `t`: the tile of that point's two blocks, the
    scaled block of `h` and its column of squared lengths. -/
def held (c : Dev nD) (t : Fin cfg0.N) : Vec F S2048x1280 .f32 × Vec F S2048x512 .f32 × Vec F S2048x1 .f32 :=
  (k0_pay4 (k0_pay2 (iblk m c 0 t)) (k0_pay3 (iblk m c 0 t)) (iblk m c 1 t), k0_pay2 (iblk m c 0 t), k0_pay3 (iblk m c 0 t))

/-- At a point that starts a row of the grid the body computes all three from the point's own blocks. -/
theorem startOfRow (c : Dev nD) (t : Fin cfg0.N) (h0 : t.val % 25 = 0) : outsAt0 m c t.val t.isLt = held m c t :=
  (outsAt0_A m c t h0).trans (congrArg₂ Prod.mk
    (outA c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t))
    (congrArg₂ Prod.mk
      (soutA0 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t))
      (soutA1 c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t))))

/-- After every point the buffers hold `held`: at the start of a row of the grid by computation; further along the row
    the carried buffers are kept from the point before, which read the same block of `h`. -/
theorem outsAt_eq (c : Dev nD) : ∀ (n : ℕ) (h : n < cfg0.N), outsAt0 m c n h = held m c ⟨n, h⟩
  | 0, h => startOfRow m c ⟨0, h⟩ rfl
  | n + 1, h => by
    by_cases h0 : (n + 1) % 25 = 0
    · exact startOfRow m c ⟨n + 1, h⟩ h0
    · have ih := outsAt_eq c n (Nat.lt_of_succ_lt h)
      have hb : (iblk m c 0 ⟨n, Nat.lt_of_succ_lt h⟩ : Vec F S2048x512 .f32) = (iblk m c 0 ⟨n + 1, h⟩ : Vec F S2048x512 .f32) :=
        iblk0_congr m c ⟨n, Nat.lt_of_succ_lt h⟩ ⟨n + 1, h⟩ (by show n / 25 = (n + 1) / 25; omega)
      refine (outsAt0_B m c ⟨n + 1, h⟩ h0).trans ?_
      show (out0_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) scM0_1 (Memref.isWhole_whole _) _ (iblk m c 0 ⟨n + 1, h⟩) (iblk m c 1 ⟨n + 1, h⟩) (outsAt0 m c n (Nat.lt_of_succ_lt h)).2.1 (outsAt0 m c n (Nat.lt_of_succ_lt h)).2.2,
        (outsAt0 m c n (Nat.lt_of_succ_lt h)).2.1, (outsAt0 m c n (Nat.lt_of_succ_lt h)).2.2) = _
      rw [outB, ih]
      unfold held
      dsimp only
      rw [hb]

end Cert.KernelIdeal.Carried

end
-- ==== Proof.Distance.lean ====
/-
  The specification: the Euclidean distance from each row of `h`, scaled to unit length, to each row of the codebook
  `w`, as one function of the two argument arrays, index by index, on the extended reals.

  For a row `x` (512 numbers) write `|x|² = ∑ k, x k · x k` and `u = x / max (√|x|²) ε` (the row scaled to unit
  length, the divisor kept away from zero by `ε`). The distance from `u` to a codebook row `w` is taken through the
  expansion `|u − w|² = |u|² − 2·(u·w) + |w|²`, clipped below at zero before the root:
  `dist x w = √ (max ((|u|² − 2 · ∑ k, u k · w k) + |w|²) 0)`.
  The three constants `ε`, `2` and `0` are kept as the float words both programs spell; only their being the same
  words on both sides matters.
-/
import Idealize.ShloMosaic.PureOps.Ideal
import Idealize.ShloMosaic.Lib.ValueIdx

noncomputable section

namespace Cert.Distance

open Idealize.ShloMosaic Idealize.ShloMosaic.ValueIdx

/-- The floor `ε` of the divisor. -/
def eps : EReal := Ideal.ofBits .f32 0x2B8CBCCC#32
/-- The factor `2` of the cross term. -/
def two : EReal := Ideal.ofBits .f32 0x40000000#32
/-- The floor `0` under the root. -/
def zero : EReal := Ideal.ofBits .f32 0x00000000#32

/-- `|x|²`: the sum of the squares of a row. -/
def sumSq {K : ℕ} (x : Fin K → EReal) : EReal := ∑ k : Fin K, x k * x k

/-- `x · y`: the sum of the products of two rows. -/
def dot {K : ℕ} (x y : Fin K → EReal) : EReal := ∑ k : Fin K, x k * y k

/-- The row scaled to unit length: each entry over `max (√|x|²) ε`. -/
def unit {K : ℕ} (x : Fin K → EReal) (k : Fin K) : EReal := Ideal.div (x k) (max (Ideal.sqrt (sumSq x)) eps)

/-- The distance from its three ingredients: `√ (max ((q − 2·c) + s) 0)` for `q = |u|²`, `c = u·w`, `s = |w|²`. -/
def gap (q c s : EReal) : EReal := Ideal.sqrt (max ((q - two * c) + s) zero)

/-- The distance from the row `x`, scaled to unit length, to the row `w`. -/
def dist {K : ℕ} (x w : Fin K → EReal) : EReal := gap (sumSq (unit x)) (dot (unit x) w) (sumSq w)

/-- The result array: entry `(b, s, n)` is the distance from row `(b, s)` of `h` to row `n` of the codebook. -/
def G (h : (⟨3, ![2, 2048, 512]⟩ : Shape).Idx → EReal) (w : (⟨2, ![32000, 512]⟩ : Shape).Idx → EReal) :
    (⟨3, ![2, 2048, 32000]⟩ : Shape).Idx → EReal :=
  fun i => dist (fun k : Fin 512 => h (ix3 (i 0 : Fin 2) (i 1 : Fin 2048) k)) (fun k : Fin 512 => w (ix2 (i 2 : Fin 32000) k))

theorem G_apply (h : (⟨3, ![2, 2048, 512]⟩ : Shape).Idx → EReal) (w : (⟨2, ![32000, 512]⟩ : Shape).Idx → EReal)
    (b : Fin 2) (s : Fin 2048) (n : Fin 32000) :
    G h w (ix3 b s n) = dist (fun k : Fin 512 => h (ix3 b s k)) (fun k : Fin 512 => w (ix2 n k)) := rfl

/-- The same over the rows of `h` laid out flat, 4096 rows: entry `(r, n)` is the distance from row `r` to row `n` of
    the codebook. -/
def G2 (hm : (⟨2, ![4096, 512]⟩ : Shape).Idx → EReal) (w : (⟨2, ![32000, 512]⟩ : Shape).Idx → EReal) :
    (⟨2, ![4096, 32000]⟩ : Shape).Idx → EReal :=
  fun i => dist (fun k : Fin 512 => hm (ix2 (i 0 : Fin 4096) k)) (fun k : Fin 512 => w (ix2 (i 1 : Fin 32000) k))

theorem G2_apply (hm : (⟨2, ![4096, 512]⟩ : Shape).Idx → EReal) (w : (⟨2, ![32000, 512]⟩ : Shape).Idx → EReal)
    (r : Fin 4096) (n : Fin 32000) :
    G2 hm w (ix2 r n) = dist (fun k : Fin 512 => hm (ix2 r k)) (fun k : Fin 512 => w (ix2 n k)) := rfl

end Cert.Distance

end
-- ==== Proof.LibRowProduct.lean ====
/-
  A product of two matrices contracted along their rows, into a zero accumulator, read at one entry.

  For a matrix `l` of shape `[M, K]` and a matrix `r` of shape `[N, K]`, each contracted over its SECOND axis (the product
  `l · rᵀ`, the form a weight stored as [out, in] is applied in), the entry `(p, c)` on the extended reals is
  `∑ k, l[p, k] · r[c, k]`: the accumulator contributes the real `0`, the contraction index has a single axis of extent `K`
  and is traded for its one coordinate `k`, and the operand indices at the output index `(p, c)` and contraction
  coordinate `k` are `(p, k)` and `(c, k)`.

  The dimension numbers enter only through six facts, which a caller proves for its own record: the contraction shape has
  rank one (`hr`) and extent `K` (`hs`), and the four coordinates of the two operand indices (`hl0`, `hl1`, `hr0`, `hr1`).
  The operands' float formats are arbitrary.
-/
import Idealize.ShloMosaic.Lib.ValueIdx
import Idealize.ShloMosaic.PureOps.Ideal.Laws

noncomputable section

namespace Cert.RowProduct

open Idealize.ShloMosaic Idealize.ShloMosaic.ValueIdx

/-- Entry `(p, c)` of an `[M, K]` by `[N, K]` product over the second axes, into the zero accumulator, is
    `∑ k, l[p, k] · r[c, k]`, for any dimension numbers `D` whose contraction has the one axis of extent `K` and whose operand
    indices read `(p, k)` and `(c, k)`. -/
theorem matmul_zero_entry {M K N : ℕ} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (j (1 : Fin 2)).val)
    (hr1 : ∀ (j : (⟨2, ![M, N]⟩ : Shape).Idx) (q : D.contr.Idx), (D.rhsIdx j q (1 : Fin 2)).val = (q ⟨0, by omega⟩).val)
    {φ₁ φ₂ : FTy} (l : FVec Ideal ⟨2, ![M, K]⟩ φ₁) (r : FVec Ideal ⟨2, ![N, K]⟩ φ₂) (p : Fin M) (c : Fin N) :
    FloatOps.matmul D none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 c k :=
    funext fun a => Fin.ext (by
      match a with
      | ⟨0, _⟩ => exact hr0 (ix2 p c) _
      | ⟨1, _⟩ => exact (hr1 (ix2 p c) _).trans hk)
  rw [el, er]

end Cert.RowProduct

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibLaneSum.lean ====
/-
  The sum along the rows of a matrix, read at one row.

  A float `vector.multi_reduction <add>` of an `[a, b]` matrix over its SECOND axis (a lane sum: one number per row, the
  form `jnp.sum(x, axis=-1)` takes inside a kernel) is, at row `p` on the extended reals, the plain sum over the
  columns `k` of the entries `(p, k)`: the reduction's accumulator is the neutral element of the sum and contributes
  nothing, and the index the reduction inserts the column `k` into at row `p` is `(p, k)`.
-/
import Idealize.ShloMosaic.Lib.ValueIdx
import Idealize.ShloMosaic.PureOps.Ideal.Laws

noncomputable section

namespace Cert.LaneSum

open Idealize.ShloMosaic Idealize.ShloMosaic.ValueIdx

/-- Row `p` of the lane sum of an `[a, b]` matrix is `∑ k, src[p, k]`, for any float format and any witnesses of the
    reduction's side conditions. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun c => Fin.ext (by
      match c with
      | ⟨0, _⟩ => rfl
      | ⟨1, _⟩ => rfl)))

end Cert.LaneSum

end
-- ==== Proof.Payload.lean ====
/-
  The body's arithmetic read entry by entry, on the extended reals.

  The body computes three values. From a block `v` of 2048 rows of `h`: the block scaled row by row to unit length
  (entry `(p, k)` is `unit (row p of v) k`) and, as a column, the squared length of each scaled row. From a scaled block
  `a`, such a column `b` and a block `w` of 1280 codebook rows: the tile of distances, whose entry `(p, c)` is
  `gap (b p) (row p of a · row c of w) |row c of w|²`. Each lane sum is the plain sum over the 512 columns, each column
  is read at its row, the one row of codebook lengths is read at its column, and the product of `a` with `w` along both
  their rows into the zero accumulator is the plain sum of products.
-/
import proofs.«177006_j24635932410273_2_alg».proof.Proof.Gen.KernelIdeal.Skeleton
import proofs.«177006_j24635932410273_2_alg».proof.Proof.Distance
import proofs.«177006_j24635932410273_2_alg».proof.Proof.LibRowProduct
import proofs.«177006_j24635932410273_2_alg».proof.Proof.LibColumnLayout
import proofs.«177006_j24635932410273_2_alg».proof.Proof.LibLaneSum
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Distance

/-- Entry `(p, k)` of the scaled block: row `p` of `v` scaled to unit length, at `k`. -/
theorem pay1_apply (v : Vec Ideal S2048x512 .f32) (p : Fin 2048) (k : Fin 512) :
    k0_pay1 (F := Ideal) v (ix2 p k) = unit (fun q : Fin 512 => v (ix2 p q)) k := by
  unfold k0_pay1
  simp only [shapeCast_self]
  show Ideal.div (v (ix2 p k)) (broadcastTo S2048x512 _ broadcasts_S2048x1_S2048x512 (ix2 p k)) = _
  rw [Cert.ColumnLayout.broadcastTo_a1_ab_apply]
  show Ideal.div (v (ix2 p k)) (max (Ideal.sqrt (shapeCast S2048x1 _ shapeCasts_S2048_S2048x1 (ix2 p (0 : Fin 1)))) _) = _
  rw [Cert.ColumnLayout.shapeCast_a_a1_apply]
  exact congrArg (fun s : EReal => Ideal.div (v (ix2 p k)) (max (Ideal.sqrt s) eps))
    (Cert.LaneSum.multiReduction_add_rows (mulf (F := Ideal) v v) _ _ _ _ p)

/-- What is stored into the first carried buffer is the scaled block. -/
theorem pay2_eq (v : Vec Ideal S2048x512 .f32) : k0_pay2 (F := Ideal) v = k0_pay1 (F := Ideal) v := by
  unfold k0_pay2
  exact shapeCast_self _ _

theorem pay2_apply (v : Vec Ideal S2048x512 .f32) (p : Fin 2048) (k : Fin 512) :
    k0_pay2 (F := Ideal) v (ix2 p k) = unit (fun q : Fin 512 => v (ix2 p q)) k := by
  rw [pay2_eq]; exact pay1_apply v p k

/-- What is stored into the second carried buffer: at row `p` the squared length of the scaled row `p`. -/
theorem pay3_apply (v : Vec Ideal S2048x512 .f32) (p : Fin 2048) (u : Fin 1) :
    k0_pay3 (F := Ideal) v (ix2 p u) = sumSq (unit (fun q : Fin 512 => v (ix2 p q))) := by
  unfold k0_pay3
  simp only [shapeCast_self]
  rw [Cert.ColumnLayout.shapeCast_a_a1_apply]
  refine (Cert.LaneSum.multiReduction_add_rows (mulf (F := Ideal) (k0_pay1 v) (k0_pay1 v)) _ _ _ _ p).trans ?_
  unfold sumSq
  exact Finset.sum_congr rfl fun k _ => by
    show k0_pay1 (F := Ideal) v (ix2 p k) * k0_pay1 (F := Ideal) v (ix2 p k) = _
    rw [pay1_apply]

/-! The product's dimension numbers: one contracted axis of extent 512, the left operand read at `(p, k)`, the right
    at `(c, k)`. -/

theorem dot_l0 (j : S2048x1280.Idx) (q : dot_S2048x512_S1280x512_S2048x1280_1_1_0_0_n_n.contr.Idx) :
    (dot_S2048x512_S1280x512_S2048x1280_1_1_0_0_n_n.lhsIdx j q (0 : Fin 2)).val = (j (0 : Fin 2)).val := by
  unfold DotDims.lhsIdx
  rw [dif_neg (show ¬(0 : Fin S2048x512.rank) ∈ dot_S2048x512_S1280x512_S2048x1280_1_1_0_0_n_n.lhsBatch by decide), dif_pos (show (0 : Fin S2048x512.rank) ∈ dot_S2048x512_S1280x512_S2048x1280_1_1_0_0_n_n.lhsNonContracting by decide)]
  rfl
theorem dot_l1 (j : S2048x1280.Idx) (q : dot_S2048x512_S1280x512_S2048x1280_1_1_0_0_n_n.contr.Idx) :
    (dot_S2048x512_S1280x512_S2048x1280_1_1_0_0_n_n.lhsIdx j q (1 : Fin 2)).val = (q ⟨0, by decide⟩).val :=
  dot_S2048x512_S1280x512_S2048x1280_1_1_0_0_n_n.lhsIdx_val_of_single rfl j q
theorem dot_r0 (j : S2048x1280.Idx) (q : dot_S2048x512_S1280x512_S2048x1280_1_1_0_0_n_n.contr.Idx) :
    (dot_S2048x512_S1280x512_S2048x1280_1_1_0_0_n_n.rhsIdx j q (0 : Fin 2)).val = (j (1 : Fin 2)).val := by
  unfold DotDims.rhsIdx
  rw [dif_neg (show ¬(0 : Fin S1280x512.rank) ∈ dot_S2048x512_S1280x512_S2048x1280_1_1_0_0_n_n.rhsBatch by decide), dif_pos (show (0 : Fin S1280x512.rank) ∈ dot_S2048x512_S1280x512_S2048x1280_1_1_0_0_n_n.rhsNonContracting by decide)]
  rfl
theorem dot_r1 (j : S2048x1280.Idx) (q : dot_S2048x512_S1280x512_S2048x1280_1_1_0_0_n_n.contr.Idx) :
    (dot_S2048x512_S1280x512_S2048x1280_1_1_0_0_n_n.rhsIdx j q (1 : Fin 2)).val = (q ⟨0, by decide⟩).val :=
  dot_S2048x512_S1280x512_S2048x1280_1_1_0_0_n_n.rhsIdx_val_of_single rfl j q

/-- Entry `(p, c)` of the tile of distances, from a scaled block `a`, a column `b` of squared lengths and a block `w`
    of codebook rows. -/
theorem pay4_apply (a : Vec Ideal S2048x512 .f32) (b : Vec Ideal S2048x1 .f32) (w : Vec Ideal S1280x512 .f32)
    (p : Fin 2048) (c : Fin 1280) :
    k0_pay4 (F := Ideal) a b w (ix2 p c)
      = gap (b (ix2 p (0 : Fin 1))) (dot (fun k : Fin 512 => a (ix2 p k)) (fun k : Fin 512 => w (ix2 c k)))
          (sumSq (fun k : Fin 512 => w (ix2 c k))) := by
  unfold k0_pay4
  show Ideal.sqrt (max ((broadcastTo S2048x1280 b broadcasts_S2048x1_S2048x1280 (ix2 p c) - two * _)
    + broadcastTo S2048x1280 (shapeCast S1x1280 _ shapeCasts_S1280_S1x1280) broadcasts_S1x1280_S2048x1280 (ix2 p c)) zero) = _
  rw [Cert.ColumnLayout.broadcastTo_a1_ab_apply, broadcastTo_1b_ab_apply, shapeCast_a_1a_apply]
  exact congrArg₂ (fun x y : EReal => Ideal.sqrt (max ((b (ix2 p (0 : Fin 1)) - two * x) + y) zero))
    (Cert.RowProduct.matmul_zero_entry (φ₁ := .f32) (φ₂ := .f32) dot_S2048x512_S1280x512_S2048x1280_1_1_0_0_n_n rfl rfl dot_l0 dot_l1 dot_r0 dot_r1 a w p c)
    (Cert.LaneSum.multiReduction_add_rows (mulf (F := Ideal) w w) _ _ _ _ c)

/-- The tile computed from a block `x` of rows of `h` through its two carried values and a block `w` of codebook rows:
    entry `(p, c)` is the distance from row `p` of `x` to row `c` of `w`. -/
theorem pay4_block (x : Vec Ideal S2048x512 .f32) (w : Vec Ideal S1280x512 .f32) (p : Fin 2048) (c : Fin 1280) :
    k0_pay4 (F := Ideal) (k0_pay2 x) (k0_pay3 x) w (ix2 p c)
      = dist (fun k : Fin 512 => x (ix2 p k)) (fun k : Fin 512 => w (ix2 c k)) := by
  rw [pay4_apply, pay3_apply]
  simp only [pay2_apply]
  rfl

end Cert.KernelIdeal.Payload

end
-- ==== Proof.Blocks.lean ====
/-
  From the tiles to the whole array of distances.
-/
import proofs.«177006_j24635932410273_2_alg».proof.Proof.Gen.KernelIdeal.Frame
import proofs.«177006_j24635932410273_2_alg».proof.Proof.Carried
import proofs.«177006_j24635932410273_2_alg».proof.Proof.Payload
import proofs.«177006_j24635932410273_2_alg».proof.Proof.Distance
import Idealize.ShloMosaic.Lib.Pipeline.Value
import Idealize.ShloMosaic.Lib.ValueIdx

noncomputable section

namespace Cert.KernelIdeal.Blocks

open Cert.KernelIdeal Cert.KernelIdeal.Gen Cert.KernelIdeal.Carried Cert.KernelIdeal.Payload Cert.Distance
open Idealize.ShloMosaic Idealize.ShloMosaic.TcCoe Idealize.SL.Sem Idealize.ShloMosaic.ValueIdx

variable (m : (ℓ : Loc nD τ sig) → Buf (Elt Ideal) ℓ)

/-- Entry `j` of the tile held after point `t` is the distance at the entry `i` of the whole array that sits at `j` inside
    block `(t / 25, t % 25)`: its rows of `h` and of the codebook are rows `i 0` and `i 1`. -/
theorem tile_apply (c : Dev nD) (t : Fin cfg0.N) (j : S2048x1280.Idx) (i : S4096x32000.Idx)
    (h0 : (i 0).val = 2048 * (t.val / 25) + (j 0).val) (h1 : (i 1).val = 1280 * (t.val % 25) + (j 1).val) :
    (held m c t).1 j = G2 (V m c main_v0) (V m c main_arg1) i := by
  obtain ⟨p, q, rfl⟩ : ∃ (p : Fin 2048) (q : Fin 1280), j = ix2 p q := ⟨j 0, j 1, eq_ix2 j⟩
  obtain ⟨r, n, rfl⟩ : ∃ (r : Fin 4096) (n : Fin 32000), i = ix2 r n := ⟨i 0, i 1, eq_ix2 i⟩
  exact (pay4_block (iblk m c 0 t) (iblk m c 1 t) p q).trans
    (congrArg₂ dist (funext fun k => iblk0_apply m c t p k r h0) (funext fun k => iblk1_apply m c t q k n h1))

/-- What point `t` writes back is block `t` of the whole array of distances. -/
theorem flushed_eq (c : Dev nD) (t : Fin cfg0.N) :
    (dats m 0 c).flushed 2 t = ((cfg0.win 2).blk t).view.read (Elt Ideal) (G2 (V m c main_v0) (V m c main_arg1)) := by
  show (cfg0.win 2).cut (grid0.coords t) ((dats m 0 c).after 2 t) = _
  rw [after0_2, outsAt_eq m c t.val t.isLt]
  funext j
  show (held m c t).1 j = G2 (V m c main_v0) (V m c main_arg1) (((cfg0.win 2).blk t).view.emb j)
  refine tile_apply m c t j _ ?_ ?_
  · show win0_2.index t (0 : Fin 2) * 2048 + 1 * (j 0).val = 2048 * (t.val / 25) + (j 0).val
    rw [(idx_facts t).2.2.2.2.1]; omega
  · show win0_2.index t (1 : Fin 2) * 1280 + 1 * (j 1).val = 1280 * (t.val % 25) + (j 1).val
    rw [(idx_facts t).2.2.2.2.2]; omega

/-- An entry of the array is in point `t`'s block iff each coordinate is in the block's range on its axis. -/
theorem mem_blk (t : Fin cfg0.N) (i : S4096x32000.Idx) :
    i ∈ ((cfg0.win 2).blk t).view.set ↔ ∀ a : Fin 2, win0_2.index t a * S2048x1280.size a ≤ (i a).val ∧ (i a).val < win0_2.index t a * S2048x1280.size a + S2048x1280.size a := by
  show i ∈ ((View.whole main_v1).slice (win0_2.rect t)).set ↔ _
  rw [View.set_slice_whole, Rect.mem_set_unit]
  exact Iff.rfl

/-- Every entry `(r, n)` is in the block of the point `25 · (r / 2048) + n / 1280`. -/
theorem cover (i : S4096x32000.Idx) :
    ∃ t : Fin cfg0.N, (cfg0.win 2).flush t = true ∧ i ∈ ((cfg0.win 2).blk t).view.set := by
  have hi0 : (i 0).val < 4096 := (i 0).isLt
  have hi1 : (i 1).val < 32000 := (i 1).isLt
  have hN : cfg0.N = 50 := N_0
  refine ⟨⟨25 * ((i 0).val / 2048) + (i 1).val / 1280, lt_of_lt_of_eq (by omega) hN.symm⟩, flush0_2 _, ?_⟩
  rw [mem_blk]
  obtain ⟨-, -, -, -, e0, e1⟩ := idx_facts ⟨25 * ((i 0).val / 2048) + (i 1).val / 1280, lt_of_lt_of_eq (by omega) hN.symm⟩
  intro a
  match a with
  | ⟨0, _⟩ =>
    show win0_2.index _ (0 : Fin 2) * 2048 ≤ (i 0).val ∧ (i 0).val < win0_2.index _ (0 : Fin 2) * 2048 + 2048
    rw [e0]; dsimp only; omega
  | ⟨1, _⟩ =>
    show win0_2.index _ (1 : Fin 2) * 1280 ≤ (i 1).val ∧ (i 1).val < win0_2.index _ (1 : Fin 2) * 1280 + 1280
    rw [e1]; dsimp only; omega

/-- The array the region leaves: every entry the distance from its row of `h` to its row of the codebook. -/
theorem final (c : Dev nD) : (dats m 0 c).arrAt 2 cfg0.N = G2 (V m c main_v0) (V m c main_arg1) :=
  (dats m 0 c).arrAt_eq_of_cover 2 (G2 (V m c main_v0) (V m c main_arg1)) (fun t _ => flushed_eq m c t) (cover)

end Cert.KernelIdeal.Blocks

end
-- ==== Proof.LibFlatRows.lean ====
/-
  The leading two axes of a rank-3 array merged into one, and split again.

  An `[a, b, c]` array reshaped to `[n, c]` with `n = a · b` rows (`x.reshape(a * b, c)`: a batch of sequences laid out as
  one list of rows) holds at row `i · b + j`, column `k`, the entry `(i, j, k)`; an `[n, c]` matrix reshaped to `[a, b, c]`
  holds at `(i, j, k)` the entry at row `i · b + j`, column `k`. In both directions the two indices sit at the same
  row-major position. The row is passed as its own variable with the equation `r = i · b + j`, so that a caller whose row
  count is a literal (4096, not 2 · 2048) can use the lemmas as they stand.
-/
import Idealize.ShloMosaic.Lib.Pipeline.Value
import Idealize.ShloMosaic.Lib.ValueIdx

namespace Cert.FlatRows

open Idealize.ShloMosaic Idealize.ShloMosaic.ValueIdx

variable {α : Type}

/-- Rows merged: the `[n, c]` reshape of an `[a, b, c]` array reads, at `(r, k)` with `r = i · b + j`, the operand at
    `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Rows split: the `[a, b, c]` reshape of an `[n, c]` matrix reads, at `(i, j, k)`, the operand at `(r, k)` with
    `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Cert.FlatRows
-- ==== Proof.Whole.lean ====
/-
  The whole program's result.

  Around the region the program only changes layout: before it the `[2, 2048, 512]` array `h` is reshaped to 4096 rows,
  after it the `[4096, 32000]` array of distances is reshaped to `[2, 2048, 32000]`. Row `(b, s)` of `h` is flat row
  `2048 · b + s`, and entry `(b, s, n)` of the result is entry `(2048 · b + s, n)` of the region's array, so the result is
  the specification `G` of the two argument arrays.
-/
import proofs.«177006_j24635932410273_2_alg».proof.Proof.Gen.KernelIdeal.Frame
import proofs.«177006_j24635932410273_2_alg».proof.Proof.Blocks
import proofs.«177006_j24635932410273_2_alg».proof.Proof.Distance
import proofs.«177006_j24635932410273_2_alg».proof.Proof.LibFlatRows
import Idealize.ShloMosaic.Lib.Pipeline.Value
import Idealize.ShloMosaic.Lib.StableHlo.Run
import Idealize.ShloMosaic.Lib.ValueIdx

noncomputable section

namespace Cert.KernelIdeal.Whole

open Cert.KernelIdeal Cert.KernelIdeal.Gen Cert.KernelIdeal.Blocks Cert.Distance
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- Before the region the rows of `h` are laid flat: the `[4096, 512]` array the region reads is the reshape of `h`. -/
theorem rows_flat (c : Dev nD) : (V m c main_v0 : S4096x512.Idx → EReal)
    = shapeCast S4096x512 (m ((c : Thread nD τ).loc main_arg0)) shapeCasts_S2x2048x512_S4096x512 := by
  show StableHlo.after hostOps0 (fun b => m (c, b)) (Proc.devRef .tc main_v0) = _
  after_results
  rfl

/-- After the region the array of distances it left is folded back to `[2, 2048, 32000]`. -/
theorem folded (c : Dev nD) : (Pipeline.afterTail₀ cfgs (dats m) 0 (V0 m) [hostOps1] c main_v2 : S2x2048x32000.Idx → EReal)
    = shapeCast S2x2048x32000 (G2 (V m c main_v0) (V m c main_arg1)) shapeCasts_S4096x32000_S2x2048x32000 := by
  have e : Pipeline.withArrays (cfgs 0).spec c (V0 m c) (fun w => (dats m 0 c).arrAt w (cfgs 0).N) (Proc.devRef .tc main_v1)
      = G2 (V m c main_v0) (V m c main_arg1) :=
    (Pipeline.withArrays_arr spec0 launch0.win.arr_inj c (V0 m c) (fun w => (dats m 0 c).arrAt w cfg0.N) 2).trans (final m c)
  unfold Pipeline.afterTail₀
  show StableHlo.after hostOps1 _ (Proc.devRef .tc main_v2) = _
  after_results
  rw [e]
  rfl

/-- Rows laid flat, distances taken row by row, the result folded back: entry `(b, s, n)` is taken at flat row
    `2048 · b + s`, which is row `(b, s)` of `h`. -/
theorem whole_eq (h : S2x2048x512.Idx → EReal) (w : S32000x512.Idx → EReal) :
    shapeCast S2x2048x32000 (G2 (shapeCast S4096x512 h shapeCasts_S2x2048x512_S4096x512) w) shapeCasts_S4096x32000_S2x2048x32000
      = G h w := by
  funext i
  obtain ⟨b, s, n, rfl⟩ : ∃ (b : Fin 2) (s : Fin 2048) (n : Fin 32000), i = ix3 b s n := ⟨i 0, i 1, i 2, eq_ix3 i⟩
  have hb := b.isLt
  have hs := s.isLt
  rw [Cert.FlatRows.shapeCast_nc_abc_apply _ _ b s n ⟨b.val * 2048 + s.val, by omega⟩ rfl, G2_apply, G_apply]
  refine congrArg₂ Cert.Distance.dist (funext fun k => ?_) rfl
  exact Cert.FlatRows.shapeCast_abc_nc_apply h _ b s k ⟨b.val * 2048 + s.val, by omega⟩ rfl

/-- The program's result: the array of distances of the two argument arrays. -/
theorem result (c : Dev nD) : (Pipeline.afterTail₀ cfgs (dats m) 0 (V0 m) [hostOps1] c main_v2 : S2x2048x32000.Idx → EReal)
    = G (m ((c : Thread nD τ).loc main_arg0)) (m ((c : Thread nD τ).loc main_arg1)) := by
  rw [folded, rows_flat, V_main_arg1]
  exact whole_eq _ _

/-- The run, read: every weakly fair execution terminates with the result array at the distances of the argument arrays
    and the argument arrays unchanged. -/
theorem run : θ_run defs (onTc (τ := τ) (main (F := Ideal))) ⟨m, fun _ => 0, ρ⟩ fun r => ∀ c : Dev nD,
      r.2.mem ((c.tc : Thread nD τ).loc main_v2) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.Reference.lean ====
/-
  The reference computes the specification.
-/
import proofs.«177006_j24635932410273_2_alg».proof.Proof.Gen.ReferenceIdeal.Read
import proofs.«177006_j24635932410273_2_alg».proof.Proof.Distance
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Distance

/-- Entry `(b, s, k)` of the reference's scaled `h`: row `(b, s)` scaled to unit length, at `k`. The norm is the
    root of the row's sum of squares (the sum started from the zero word, which adds nothing), kept as a column,
    floored at `ε` and spread back over the row. -/
theorem scaled_apply (x0 : (⟨S2x2048x512, .f32⟩ : BufTy).Contents (Elt Ideal)) (b : Fin 2) (s : Fin 2048) (k : Fin 512) :
    val_main_v4 (F := Ideal) x0 (ix3 b s k) = unit (fun q : Fin 512 => x0 (ix3 b s q)) k := by
  have e : ∀ q : Fin 512, idx_main_call0_v1 (idx_main_call0_v2 (idx_main_v3 (ix3 b s k))) q = ix3 b s q :=
    fun q => funext fun a => Fin.ext (by match a with | ⟨0, _⟩ => rfl | ⟨1, _⟩ => rfl | ⟨2, _⟩ => rfl)
  rw [val_main_v4_apply, val_main_v3_apply, val_main_v2_apply, val_main_v1_apply, val_main_cst_apply, val_main_v0_apply,
    val_main_call0_v2_apply, val_main_call0_v1_apply]
  simp only [val_main_call0_v0_apply, val_main_call0_cst_apply, e, Ideal.hostDivf_def, Ideal.maximumf_def,
    Ideal.hostUnary_sqrt_def, Ideal.mulf_def, Ideal.ofBits_def, Ideal.ofBits_zero_f32, zero_add]
  rfl

/-- The reference's result is the specification: entry `(b, s, n)` is the distance from row `(b, s)` of `h` to row `n`
    of the codebook — the squared length of the scaled row and of the codebook row as sums started from the zero word,
    the cross term the contraction over the 512 columns, the three joined as `(q − 2·c) + s`, floored at zero, rooted. -/
theorem result_eq (x0 : (⟨S2x2048x512, .f32⟩ : BufTy).Contents (Elt Ideal)) (x1 : (⟨S32000x512, .f32⟩ : BufTy).Contents (Elt Ideal)) :
    val_main_v20 (F := Ideal) x0 x1 = G x0 x1 := by
  funext i
  obtain ⟨b, s, n, rfl⟩ : ∃ (b : Fin 2) (s : Fin 2048) (n : Fin 32000), i = ix3 b s n := ⟨i 0, i 1, i 2, eq_ix3 i⟩
  have eh : ∀ k : Fin 512, idx_main_v6 (idx_main_v7 (idx_main_v13 (ix3 b s n))) k = ix3 b s k :=
    fun k => funext fun a => Fin.ext (by match a with | ⟨0, _⟩ => rfl | ⟨1, _⟩ => rfl | ⟨2, _⟩ => rfl)
  have ew : ∀ k : Fin 512, idx_main_v9 (idx_main_v15 (idx_main_v16 (ix3 b s n))) k = ix2 n k :=
    fun k => funext fun a => Fin.ext (by match a with | ⟨0, _⟩ => rfl | ⟨1, _⟩ => rfl)
  have el : ∀ k : Fin 512, lidx_main_v10 (ix3 b s n) k = ix3 b s k :=
    fun k => funext fun a => Fin.ext (by match a with | ⟨0, _⟩ => rfl | ⟨1, _⟩ => rfl | ⟨2, _⟩ => rfl)
  have er : ∀ k : Fin 512, ridx_main_v10 (ix3 b s n) k = ix2 n k :=
    fun k => funext fun a => Fin.ext (by match a with | ⟨0, _⟩ => rfl | ⟨1, _⟩ => rfl)
  rw [val_main_v20_apply, val_main_v19_apply, val_main_v18_apply, val_main_cst_3_apply, val_main_v17_apply,
    val_main_v14_apply, val_main_v13_apply, val_main_v7_apply, val_main_v6_apply, val_main_v12_apply, val_main_v11_apply,
    val_main_cst_2_apply, val_main_v10_apply, val_main_v16_apply, val_main_v15_apply, val_main_v9_apply]
  simp only [val_main_v5_apply, val_main_v8_apply, val_main_cst_0_apply, val_main_cst_1_apply, eh, ew, el, er, scaled_apply,
    Ideal.maximumf_def, Ideal.hostUnary_sqrt_def, Ideal.mulf_def, Ideal.addf_def, Ideal.subf_def, Ideal.ofBits_def,
    Ideal.ofBits_zero_f32, zero_add]
  rw [G_apply]
  simp only [Cert.Distance.dist, Cert.Distance.gap, Cert.Distance.sumSq, Cert.Distance.dot, Cert.Distance.zero, Cert.Distance.two,
    Ideal.ofBits_zero_f32]

end Cert.ReferenceIdeal.RefValue

end
-- ==== Proof.lean ====
/-
  The distance from each row of `h`, scaled to unit length, to each row of a codebook: the kernel against its reference.

  Both programs compute, for every row `x` of `h` (2 × 2048 rows of 512 numbers) and every row `w` of the codebook
  (32000 rows), `√ (max ((|u|² − 2 · u·w) + |w|²) 0)` with `u = x / max (√|x|²) ε` (Proof/Distance.lean). The reference does so
  on whole arrays. The kernel lays the rows of `h` flat, walks a 2 × 25 grid of tiles of 2048 rows by 1280 codebook rows,
  computes `u` and `|u|²` for a block of rows once, at the first tile of its row of the grid, carries them in two buffers
  across the other 24 tiles, and folds the array of tiles back at the end.

  On the extended reals the two agree entry by entry with no law beyond reading each operation at an index: the lane sums,
  the host's sums, the tile's product against the codebook block along both their rows and the host's contraction are the
  same sums over the 512 columns, taken in the same order, and the three constants are the same words on both sides; so
  the precondition is never opened.

    Proof/Payload.lean    the body's three values read at an entry
    Proof/Pieces.lean     what each of the body's two cases leaves in its buffers
    Proof/Carried.lean    what the buffers hold after each point of the grid (induction along a row of the grid)
    Proof/Blocks.lean     the tiles are the blocks of one array; they cover it
    Proof/Whole.lean      the reshapes around the region; the kernel's run with its result named
    Proof/Reference.lean  the reference's result is the same function
-/
import proofs.«177006_j24635932410273_2_alg».proof.Defs
import proofs.«177006_j24635932410273_2_alg».proof.Proof.Gen.Kernel
import proofs.«177006_j24635932410273_2_alg».proof.Proof.Gen.Kernel.Frame
import proofs.«177006_j24635932410273_2_alg».proof.Proof.Gen.KernelIdeal
import proofs.«177006_j24635932410273_2_alg».proof.Proof.Gen.KernelIdeal.Frame
import proofs.«177006_j24635932410273_2_alg».proof.Proof.Gen.ReferenceIdeal
import proofs.«177006_j24635932410273_2_alg».proof.Proof.Gen.Pre_finite_inputs
import proofs.«177006_j24635932410273_2_alg».proof.Proof.Gen.ReferenceIdeal.Run
import proofs.«177006_j24635932410273_2_alg».proof.Proof.Gen.ReferenceIdeal.Read
import proofs.«177006_j24635932410273_2_alg».proof.Proof.Whole
import proofs.«177006_j24635932410273_2_alg».proof.Proof.Reference
import Idealize.ShloMosaic.Adequacy
import Idealize.ShloMosaic.Init

noncomputable section

namespace Cert.Proof

open Idealize.ShloMosaic Idealize.SL.Sem

/-- Each kernel program terminates without a fault and leaves its arguments as they were. -/
theorem frame_k : Cert.frame_Kernel := fun m ρ _ => Cert.Kernel.Gen.frame m ρ
theorem frame_ki : Cert.frame_KernelIdeal := fun m ρ _ => Cert.KernelIdeal.Gen.frame m ρ
/-- So does the reference: its run, the result's clause dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- On the extended reals the kernel's result array and the reference's are the array of distances of arguments that
    agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
